-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x1024 : Shape := ⟨2, ![512, 1024]⟩
abbrev S512 : Shape := ⟨1, ![512]⟩
abbrev S_ : Shape := ⟨0, ![]⟩

class Facts : Prop where
  bcast_S_S512x1024 : S_.BroadcastsInDim S512x1024 (![] : Fin 0 → Fin S512x1024.rank)
  reducesTo_S512x1024_S_d0_1 : S512x1024.ReducesTo [0, 1] S_
  h_S_ : 0 < S_.numel
  bcast_S_S512 : S_.BroadcastsInDim S512 (![] : Fin 0 → Fin S512.rank)
  reducesTo_S512_S_d0 : S512.ReducesTo [0] S_
  reducesTo_S_S_d : S_.ReducesTo [] S_

variable [Facts]

def fn_part1 {F : FTy → Type} [FloatOps F] (main_arg4 : FVec F S_ .f32) (main_v13 : IVec S_ 1) (main_v15 : IVec S_ 1) (main_c_5 : IVec S_ 1) : IVec S_ 1 :=
  let main_v16 : IVec S_ 1 := (fun x v => Host.reduce IntOp.andi x v reducesTo_S_S_d h_S_) main_v15 main_c_5
  let main_v17 : IVec S_ 1 := andi main_v13 main_v16
  let main_v18 : FVec F S_ .f32 := Host.absf main_arg4
  let main_cst_6 : FVec F S_ .f32 := constant S_ .f32 0x7F800000#32
  let main_v19 : IVec S_ 1 := cmpf .olt main_v18 main_cst_6
  let main_c_7 : IVec S_ 1 := constantI S_ 1 1#1
  let main_v20 : IVec S_ 1 := (fun x v => Host.reduce IntOp.andi x v reducesTo_S_S_d h_S_) main_v19 main_c_7
  let main_v21 : IVec S_ 1 := andi main_v17 main_v20
  main_v21

def fn {F : FTy → Type} [FloatOps F] (main_arg0 : FVec F S512x1024 .f32) (main_arg1 : FVec F S512x1024 .f32) (main_arg2 : FVec F S512 .f32) (main_arg3 : FVec F S_ .f32) (main_arg4 : FVec F S_ .f32) : IVec S_ 1 :=
  let main_v0 : FVec F S512x1024 .f32 := Host.absf main_arg0
  let main_cst : FVec F S_ .f32 := constant S_ .f32 0x7F800000#32
  let main_v1 : FVec F S512x1024 .f32 := broadcastInDim S512x1024 ![] bcast_S_S512x1024 main_cst
  let main_v2 : IVec S512x1024 1 := cmpf .olt main_v0 main_v1
  let main_c : IVec S_ 1 := constantI S_ 1 1#1
  let main_v3 : IVec S_ 1 := (fun x v => Host.reduce IntOp.andi x v reducesTo_S512x1024_S_d0_1 h_S_) main_v2 main_c
  let main_v4 : FVec F S512x1024 .f32 := Host.absf main_arg1
  let main_cst_0 : FVec F S_ .f32 := constant S_ .f32 0x7F800000#32
  let main_v5 : FVec F S512x1024 .f32 := broadcastInDim S512x1024 ![] bcast_S_S512x1024 main_cst_0
  let main_v6 : IVec S512x1024 1 := cmpf .olt main_v4 main_v5
  let main_c_1 : IVec S_ 1 := constantI S_ 1 1#1
  let main_v7 : IVec S_ 1 := (fun x v => Host.reduce IntOp.andi x v reducesTo_S512x1024_S_d0_1 h_S_) main_v6 main_c_1
  let main_v8 : IVec S_ 1 := andi main_v3 main_v7
  let main_v9 : FVec F S512 .f32 := Host.absf main_arg2
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S_ .f32 := Host.absf main_arg3
  let main_cst_4 : FVec F S_ .f32 := constant S_ .f32 0x7F800000#32
  let main_v15 : IVec S_ 1 := cmpf .olt main_v14 main_cst_4
  let main_c_5 : IVec S_ 1 := constantI S_ 1 1#1
  fn_part1 (F := F) main_arg4 main_v13 main_v15 main_c_5
-- ==== Kernel.lean ====
abbrev S512x1024 : Shape := ⟨2, ![512, 1024]⟩
abbrev S512 : Shape := ⟨1, ![512]⟩
abbrev S_ : Shape := ⟨0, ![]⟩
abbrev S512x1 : Shape := ⟨2, ![512, 1]⟩
abbrev S1x512 : Shape := ⟨2, ![1, 512]⟩
abbrev S1x1 : Shape := ⟨2, ![1, 1]⟩
abbrev S512x512 : Shape := ⟨2, ![512, 512]⟩
abbrev S128x128 : Shape := ⟨2, ![128, 128]⟩
abbrev S128x1 : Shape := ⟨2, ![128, 1]⟩
abbrev S1x128 : Shape := ⟨2, ![1, 128]⟩
abbrev S128x1x128 : Shape := ⟨3, ![128, 1, 128]⟩
abbrev S1x128x128 : Shape := ⟨3, ![1, 128, 128]⟩
abbrev S128x128x128 : Shape := ⟨3, ![128, 128, 128]⟩

abbrev nBuf : Space → Nat
  | .hbm => 32
  | .vmem => 15
  | .smem => 0
  | _ => 0

abbrev bufTy : (tb : Table) → Fin (tcTables nBuf tb) → BufTy
  | .hbm, ⟨0, _⟩ => ⟨S512x1024, .f32⟩
  | .hbm, ⟨1, _⟩ => ⟨S512x1024, .f32⟩
  | .hbm, ⟨2, _⟩ => ⟨S512, .f32⟩
  | .hbm, ⟨3, _⟩ => ⟨S_, .f32⟩
  | .hbm, ⟨4, _⟩ => ⟨S_, .f32⟩
  | .hbm, ⟨5, _⟩ => ⟨S512x1024, .f32⟩
  | .hbm, ⟨6, _⟩ => ⟨S512x1024, .f32⟩
  | .hbm, ⟨7, _⟩ => ⟨S_, .f32⟩
  | .hbm, ⟨8, _⟩ => ⟨S512x1024, .f32⟩
  | .hbm, ⟨9, _⟩ => ⟨S512x1024, .f32⟩
  | .hbm, ⟨10, _⟩ => ⟨S_, .f32⟩
  | .hbm, ⟨11, _⟩ => ⟨S512x1024, .f32⟩
  | .hbm, ⟨12, _⟩ => ⟨S512x1024, .f32⟩
  | .hbm, ⟨13, _⟩ => ⟨S_, .f32⟩
  | .hbm, ⟨14, _⟩ => ⟨S512, .f32⟩
  | .hbm, ⟨15, _⟩ => ⟨S512x1, .f32⟩
  | .hbm, ⟨16, _⟩ => ⟨S512x1024, .f32⟩
  | .hbm, ⟨17, _⟩ => ⟨S512x1024, .f32⟩
  | .hbm, ⟨18, _⟩ => ⟨S_, .f32⟩
  | .hbm, ⟨19, _⟩ => ⟨S512x1024, .f32⟩
  | .hbm, ⟨20, _⟩ => ⟨S512x1024, .f32⟩
  | .hbm, ⟨21, _⟩ => ⟨S_, .f32⟩
  | .hbm, ⟨22, _⟩ => ⟨S512x1024, .f32⟩
  | .hbm, ⟨23, _⟩ => ⟨S512x1024, .f32⟩
  | .hbm, ⟨24, _⟩ => ⟨S_, .f32⟩
  | .hbm, ⟨25, _⟩ => ⟨S512, .f32⟩
  | .hbm, ⟨26, _⟩ => ⟨S512x1, .f32⟩
  | .hbm, ⟨27, _⟩ => ⟨S1x512, .f32⟩
  | .hbm, ⟨28, _⟩ => ⟨S1x512, .f32⟩
  | .hbm, ⟨29, _⟩ => ⟨S1x1, .f32⟩
  | .hbm, ⟨30, _⟩ => ⟨S1x1, .f32⟩
  | .hbm, ⟨31, _⟩ => ⟨S512x512, .f32⟩
  | .local _ .vmem, ⟨0, _⟩ => ⟨S128x128, .f32⟩
  | .local _ .vmem, ⟨1, _⟩ => ⟨S128x128, .f32⟩
  | .local _ .vmem, ⟨2, _⟩ => ⟨S128x128, .f32⟩
  | .local _ .vmem, ⟨3, _⟩ => ⟨S128x128, .f32⟩
  | .local _ .vmem, ⟨4, _⟩ => ⟨S128x1, .f32⟩
  | .local _ .vmem, ⟨5, _⟩ => ⟨S128x1, .f32⟩
  | .local _ .vmem, ⟨6, _⟩ => ⟨S1x128, .f32⟩
  | .local _ .vmem, ⟨7, _⟩ => ⟨S1x128, .f32⟩
  | .local _ .vmem, ⟨8, _⟩ => ⟨S1x128, .f32⟩
  | .local _ .vmem, ⟨9, _⟩ => ⟨S1x128, .f32⟩
  | .local _ .vmem, ⟨10, _⟩ => ⟨S1x1, .f32⟩
  | .local _ .vmem, ⟨11, _⟩ => ⟨S1x1, .f32⟩
  | .local _ .vmem, ⟨12, _⟩ => ⟨S128x128, .f32⟩
  | .local _ .vmem, ⟨13, _⟩ => ⟨S128x128, .f32⟩
  | .local _ .vmem, ⟨14, _⟩ => ⟨S128x128, .f32⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨3, ![4, 4, 8], ![false, false, false]⟩

def k0_cond2 (i : grid0.Coords) : BitVec 1 :=
  let arg2 : BitVec 32 := BitVec.ofNat 32 (i 2).val
  let c7_i32 : BitVec 32 := 7#32
  let v20 : BitVec 1 := Scalar.cmpi .eq arg2 c7_i32
  let v21 : BitVec 32 := Scalar.extui v20
  let c0_i32_9 : BitVec 32 := 0#32
  let v22 : BitVec 1 := Scalar.cmpi .ne v21 c0_i32_9
  v22

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S128x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S1x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, false]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 2 → Memref sig .tc .vmem S128x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

class Facts₀ : Prop where
  bcast_S_S512x1024 : S_.BroadcastsInDim S512x1024 (![] : Fin 0 → Fin S512x1024.rank)
  reducesTo_S512x1024_S512_d1 : S512x1024.ReducesTo [1] S512
  h_S_ : 0 < S_.numel
  bcast_S512_S512x1_0 : S512.BroadcastsInDim S512x1 (![0] : Fin 1 → Fin S512x1.rank)
  shapeCasts_S512x1_S1x512 : S512x1.ShapeCasts S1x512
  shapeCasts_S512_S1x512 : S512.ShapeCasts S1x512
  shapeCasts_S_S1x1 : S_.ShapeCasts S1x1
  inb_S128x128_S128x128_0_0 : ∀ a, (![0, 0] : Fin 2 → Nat) a + S128x128.size a ≤ S128x128.size a
  h_S128x128 : 0 < S128x128.numel
  shapeCasts_S128x128_S128x128 : S128x128.ShapeCasts S128x128
  shapeCasts_S128x128_S128x1x128 : S128x128.ShapeCasts S128x1x128
  shapeCasts_S128x128_S1x128x128 : S128x128.ShapeCasts S1x128x128
  broadcasts_S128x1x128_S128x128x128 : S128x1x128.Broadcasts S128x128x128
  broadcasts_S1x128x128_S128x128x128 : S1x128x128.Broadcasts S128x128x128
  reduces_S128x128x128_S128x128 : S128x128x128.Reduces [2] S128x128
  inb_S128x1_S128x1_0_0 : ∀ a, (![0, 0] : Fin 2 → Nat) a + S128x1.size a ≤ S128x1.size a
  h_S128x1 : 0 < S128x1.numel
  shapeCasts_S128x1_S128x1 : S128x1.ShapeCasts S128x1
  inb_S1x128_S1x128_0_0 : ∀ a, (![0, 0] : Fin 2 → Nat) a + S1x128.size a ≤ S1x128.size a
  h_S1x128 : 0 < S1x128.numel
  shapeCasts_S1x128_S1x128 : S1x128.ShapeCasts S1x128
  inb_S1x1_S1x1_0_0 : ∀ a, (![0, 0] : Fin 2 → Nat) a + S1x1.size a ≤ S1x1.size a
  h_S1x1 : 0 < S1x1.numel
  inpos_S1x1_p0_0 : ∀ a, (![0, 0] : Fin 2 → Nat) a < S1x1.size a
  broadcasts_S128x1_S128x128 : S128x1.Broadcasts S128x128
  broadcasts_S1x128_S128x128 : S1x128.Broadcasts S128x128
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x128.size a ≤ S512x1024.size a
  hwx0_0 : ∀ i : grid0.Coords, EltTy.bits .f32 = 32 ∨ (Rect.block (s := S512x1024) S128x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S512x1024.size a
  hwx0_1 : ∀ i : grid0.Coords, EltTy.bits .f32 = 32 ∨ (Rect.block (s := S512x1024) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x1.size a ≤ S512x1.size a
  hwx0_2 : ∀ i : grid0.Coords, EltTy.bits .f32 = 32 ∨ (Rect.block (s := S512x1) S128x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x512.size a
  hwx0_3 : ∀ i : grid0.Coords, EltTy.bits .f32 = 32 ∨ (Rect.block (s := S1x512) S1x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x512.size a
  hwx0_4 : ∀ i : grid0.Coords, EltTy.bits .f32 = 32 ∨ (Rect.block (s := S1x512) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1.size a ≤ S1x1.size a
  hwx0_5 : ∀ i : grid0.Coords, EltTy.bits .f32 = 32 ∨ (Rect.block (s := S1x1) S1x1.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1.size a ≤ S1x1.size a
  hwx0_6 : ∀ i : grid0.Coords, EltTy.bits .f32 = 32 ∨ (Rect.block (s := S1x1) S1x1.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S128x128.size a ≤ S512x512.size a
  hwx0_7 : ∀ i : grid0.Coords, EltTy.bits .f32 = 32 ∨ (Rect.block (s := S512x512) S128x128.size (cc0_transform_7 i) (hinb0_7 i)).WholeWords (EltTy.packing .f32)

variable [Facts₀]

abbrev win0_0 : Pipeline.Window sig grid0 :=
  Pipeline.Window.ofSpec (Memref.whole main_arg0) S128x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v7) S128x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v16) S1x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v17) S1x128.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v18) S1x1.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v19) S1x1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v20) S128x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev idle0 : Fin 8 → grid0.Coords → Bool := fun | 0 => fun _ => false | 1 => fun _ => false | 2 => fun _ => false | 3 => fun _ => false | 4 => fun _ => false | 5 => fun _ => false | 6 => fun _ => false | 7 => fun i => !(k0_cond2 i == 1#1) | ⟨_ + 8, h⟩ => absurd h (Nat.not_lt.2 (Nat.le_add_left _ _))

class Facts : Prop extends Facts₀ where

variable [Facts]
-- ==== ReferenceIdeal.lean ====
abbrev S512x1024 : Shape := ⟨2, ![512, 1024]⟩
abbrev S512 : Shape := ⟨1, ![512]⟩
abbrev S_ : Shape := ⟨0, ![]⟩
abbrev S512x1x1024 : Shape := ⟨3, ![512, 1, 1024]⟩
abbrev S1x512x1024 : Shape := ⟨3, ![1, 512, 1024]⟩
abbrev S512x512x1024 : Shape := ⟨3, ![512, 512, 1024]⟩
abbrev S512x512 : Shape := ⟨2, ![512, 512]⟩
abbrev S1x512 : Shape := ⟨2, ![1, 512]⟩

abbrev nBuf : Space → Nat
  | .hbm => 57
  | .vmem => 0
  | .smem => 0
  | _ => 0

abbrev bufTy : (tb : Table) → Fin (tcTables nBuf tb) → BufTy
  | .hbm, ⟨0, _⟩ => ⟨S512x1024, .f32⟩
  | .hbm, ⟨1, _⟩ => ⟨S512x1024, .f32⟩
  | .hbm, ⟨2, _⟩ => ⟨S512, .f32⟩
  | .hbm, ⟨3, _⟩ => ⟨S_, .f32⟩
  | .hbm, ⟨4, _⟩ => ⟨S_, .f32⟩
  | .hbm, ⟨5, _⟩ => ⟨S512x1024, .f32⟩
  | .hbm, ⟨6, _⟩ => ⟨S512x1024, .f32⟩
  | .hbm, ⟨7, _⟩ => ⟨S_, .f32⟩
  | .hbm, ⟨8, _⟩ => ⟨S512x1024, .f32⟩
  | .hbm, ⟨9, _⟩ => ⟨S512x1024, .f32⟩
  | .hbm, ⟨10, _⟩ => ⟨S_, .f32⟩
  | .hbm, ⟨11, _⟩ => ⟨S512x1024, .f32⟩
  | .hbm, ⟨12, _⟩ => ⟨S512x1024, .f32⟩
  | .hbm, ⟨13, _⟩ => ⟨S512x1x1024, .f32⟩
  | .hbm, ⟨14, _⟩ => ⟨S512x1024, .f32⟩
  | .hbm, ⟨15, _⟩ => ⟨S512x1024, .f32⟩
  | .hbm, ⟨16, _⟩ => ⟨S_, .f32⟩
  | .hbm, ⟨17, _⟩ => ⟨S512x1024, .f32⟩
  | .hbm, ⟨18, _⟩ => ⟨S512x1024, .f32⟩
  | .hbm, ⟨19, _⟩ => ⟨S_, .f32⟩
  | .hbm, ⟨20, _⟩ => ⟨S512x1024, .f32⟩
  | .hbm, ⟨21, _⟩ => ⟨S512x1024, .f32⟩
  | .hbm, ⟨22, _⟩ => ⟨S1x512x1024, .f32⟩
  | .hbm, ⟨23, _⟩ => ⟨S512x512x1024, .f32⟩
  | .hbm, ⟨24, _⟩ => ⟨S512x512x1024, .f32⟩
  | .hbm, ⟨25, _⟩ => ⟨S512x512x1024, .f32⟩
  | .hbm, ⟨26, _⟩ => ⟨S_, .f32⟩
  | .hbm, ⟨27, _⟩ => ⟨S512x512, .f32⟩
  | .hbm, ⟨28, _⟩ => ⟨S512x512x1024, .f32⟩
  | .hbm, ⟨29, _⟩ => ⟨S512x512x1024, .f32⟩
  | .hbm, ⟨30, _⟩ => ⟨S512x512x1024, .f32⟩
  | .hbm, ⟨31, _⟩ => ⟨S_, .f32⟩
  | .hbm, ⟨32, _⟩ => ⟨S512x512x1024, .f32⟩
  | .hbm, ⟨33, _⟩ => ⟨S512x512x1024, .f32⟩
  | .hbm, ⟨34, _⟩ => ⟨S_, .f32⟩
  | .hbm, ⟨35, _⟩ => ⟨S512x512, .f32⟩
  | .hbm, ⟨36, _⟩ => ⟨S512x512x1024, .f32⟩
  | .hbm, ⟨37, _⟩ => ⟨S512x512x1024, .f32⟩
  | .hbm, ⟨38, _⟩ => ⟨S512x512x1024, .f32⟩
  | .hbm, ⟨39, _⟩ => ⟨S_, .f32⟩
  | .hbm, ⟨40, _⟩ => ⟨S512x512x1024, .f32⟩
  | .hbm, ⟨41, _⟩ => ⟨S512x512x1024, .f32⟩
  | .hbm, ⟨42, _⟩ => ⟨S_, .f32⟩
  | .hbm, ⟨43, _⟩ => ⟨S512x512, .f32⟩
  | .hbm, ⟨44, _⟩ => ⟨S512x512, .f32⟩
  | .hbm, ⟨45, _⟩ => ⟨S512x512, .f32⟩
  | .hbm, ⟨46, _⟩ => ⟨S512x512, .f32⟩
  | .hbm, ⟨47, _⟩ => ⟨S512x512, .f32⟩
  | .hbm, ⟨48, _⟩ => ⟨S512x512, .f32⟩
  | .hbm, ⟨49, _⟩ => ⟨S512x512, .f32⟩
  | .hbm, ⟨50, _⟩ => ⟨S_, .f32⟩
  | .hbm, ⟨51, _⟩ => ⟨S512x512, .f32⟩
  | .hbm, ⟨52, _⟩ => ⟨S512x512, .f32⟩
  | .hbm, ⟨53, _⟩ => ⟨S512x512, .f32⟩
  | .hbm, ⟨54, _⟩ => ⟨S1x512, .f32⟩
  | .hbm, ⟨55, _⟩ => ⟨S512x512, .f32⟩
  | .hbm, ⟨56, _⟩ => ⟨S512x512, .f32⟩
  | _, _ => ⟨S512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_3 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_4 : Ref sig .tc := ⟨.hbm, 31, rfl⟩
abbrev main_v21 : Ref sig .tc := ⟨.hbm, 32, rfl⟩
abbrev main_v22 : Ref sig .tc := ⟨.hbm, 33, rfl⟩
abbrev main_cst_5 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_6 : Ref sig .tc := ⟨.hbm, 39, rfl⟩
abbrev main_v27 : Ref sig .tc := ⟨.hbm, 40, rfl⟩
abbrev main_v28 : Ref sig .tc := ⟨.hbm, 41, rfl⟩
abbrev main_cst_7 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_8 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩

abbrev nD : Nat := 1
abbrev τ : Topo := Topo.v7x

variable {F : FTy → Type} [FloatOps F]

class Facts₀ : Prop where
  bcast_S_S512x1024 : S_.BroadcastsInDim S512x1024 (![] : Fin 0 → Fin S512x1024.rank)
  bcast_S512x1024_S512x1x1024_0_2 : S512x1024.BroadcastsInDim S512x1x1024 (![0, 2] : Fin 2 → Fin S512x1x1024.rank)
  bcast_S512x1024_S1x512x1024_1_2 : S512x1024.BroadcastsInDim S1x512x1024 (![1, 2] : Fin 2 → Fin S1x512x1024.rank)
  bcast_S512x1x1024_S512x512x1024_0_1_2 : S512x1x1024.BroadcastsInDim S512x512x1024 (![0, 1, 2] : Fin 3 → Fin S512x512x1024.rank)
  bcast_S1x512x1024_S512x512x1024_0_1_2 : S1x512x1024.BroadcastsInDim S512x512x1024 (![0, 1, 2] : Fin 3 → Fin S512x512x1024.rank)
  reducesTo_S512x512x1024_S512x512_d2 : S512x512x1024.ReducesTo [2] S512x512
  h_S_ : 0 < S_.numel
  bcast_S_S512x512x1024 : S_.BroadcastsInDim S512x512x1024 (![] : Fin 0 → Fin S512x512x1024.rank)
  bcast_S_S512x512 : S_.BroadcastsInDim S512x512 (![] : Fin 0 → Fin S512x512.rank)
  bcast_S512_S1x512_1 : S512.BroadcastsInDim S1x512 (![1] : Fin 1 → Fin S1x512.rank)
  bcast_S1x512_S512x512_0_1 : S1x512.BroadcastsInDim S512x512 (![0, 1] : Fin 2 → Fin S512x512.rank)

variable [Facts₀]

class Facts : Prop extends Facts₀ where

variable [Facts]
-- ==== Proof.Pieces.lean ====
/-
  What each control case of the body leaves behind, as the body's stored values of the blocks it loaded.

  At the first k-step the accumulator is reset to the stored zero and then stepped; at a middle k-step it is stepped
  from what the step before left; at the last k-step it is stepped and the output block is the final value taken of
  the stepped accumulator and the five side blocks. Every store covers its whole buffer and every load reads a whole
  buffer, so what a buffer holds afterwards is the last value stored into it.
-/
import proofs.«116651_j5944234738210_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Pieces

open Cert.KernelIdeal Cert.KernelIdeal.Gen

variable {F : FTy → Type} [FloatOps F]

theorem hz : (![0, 0] : Fin 2 → Nat) = fun _ => 0 := funext fun a => by fin_cases a <;> rfl

/-- A middle k-step leaves the accumulator stepped from what it held. -/
theorem sout_B (c : Dev nD) (i : grid0.Coords) (arg3 : Memref sig .tc .vmem S128x128 .f32) (harg3 : arg3.IsWhole) (arg4 : Memref sig .tc .vmem S128x128 .f32) (harg4 : arg4.IsWhole) (arg5 : Memref sig .tc .vmem S128x1 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S128x128 .f32) (harg10 : arg10.IsWhole) (arg11 : Memref sig .tc .vmem S128x128 .f32) (harg11 : arg11.IsWhole) (hc0 : ¬cond0_0 i) (hc1 : ¬cond0_1 i) (x0 : Vec F S128x128 .f32) (x1 : Vec F S128x128 .f32) (x2 : Vec F S128x1 .f32) (x3 : Vec F S1x128 .f32) (x4 : Vec F S1x128 .f32) (x5 : Vec F S1x1 .f32) (x6 : Vec F S1x1 .f32) (xs0 : Vec F S128x128 .f32) :
    sout0_B_0 c i arg3 harg3 arg4 harg4 arg5 harg5 arg6 harg6 arg7 harg7 arg8 harg8 arg9 harg9 arg10 harg10 arg11 harg11 hc0 hc1 x0 x1 x2 x3 x4 x5 x6 xs0 = k0_pay2 x0 x1 xs0 := by
  unfold sout0_B_0
  rw [View.read_writes_eq_canon _ _ _ (scover0_B_0 c i arg3 harg3 arg4 harg4 arg5 harg5 arg6 harg6 arg7 harg7 arg8 harg8 arg9 harg9 arg10 harg10 arg11 harg11 hc0 hc1 x0 x1 x2 x3 x4 x5 x6 xs0)]
  unfold kernelRun0_B
  dsimp only
  rw [View.canon_unit_zero hz]
  simp only [View.readAt_eq_ld, harg3.read_unread, harg4.read_unread, harg11.read_unread, View.ld_unit_zero (S := S128x128) hz]

/-- The first k-step leaves the accumulator stepped from the stored zero. -/
theorem sout_A (c : Dev nD) (i : grid0.Coords) (arg3 : Memref sig .tc .vmem S128x128 .f32) (harg3 : arg3.IsWhole) (arg4 : Memref sig .tc .vmem S128x128 .f32) (harg4 : arg4.IsWhole) (arg5 : Memref sig .tc .vmem S128x1 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S128x128 .f32) (harg10 : arg10.IsWhole) (arg11 : Memref sig .tc .vmem S128x128 .f32) (harg11 : arg11.IsWhole) (hc0 : cond0_0 i) (hc1 : ¬cond0_1 i) (x0 : Vec F S128x128 .f32) (x1 : Vec F S128x128 .f32) (x2 : Vec F S128x1 .f32) (x3 : Vec F S1x128 .f32) (x4 : Vec F S1x128 .f32) (x5 : Vec F S1x1 .f32) (x6 : Vec F S1x1 .f32) :
    sout0_A_0 c i arg3 harg3 arg4 harg4 arg5 harg5 arg6 harg6 arg7 harg7 arg8 harg8 arg9 harg9 arg10 harg10 arg11 harg11 hc0 hc1 x0 x1 x2 x3 x4 x5 x6 = k0_pay2 x0 x1 k0_pay1 := by
  unfold sout0_A_0
  rw [View.read_writes_eq_canon _ _ _ (scover0_A_0 c i arg3 harg3 arg4 harg4 arg5 harg5 arg6 harg6 arg7 harg7 arg8 harg8 arg9 harg9 arg10 harg10 arg11 harg11 hc0 hc1 x0 x1 x2 x3 x4 x5 x6)]
  unfold kernelRun0_A
  dsimp only
  sl_unfold_words
  rw [View.canon_cons_unit_zero (S := S128x128) hz, View.readCov_unit_zero (S := S128x128) _ hz]
  simp only [View.readAt_eq_ld, harg3.read_unread, harg4.read_unread, View.ld_unit_zero (S := S128x128) hz]

/-- The last k-step leaves the accumulator stepped from what it held, -/
theorem sout_C (c : Dev nD) (i : grid0.Coords) (arg3 : Memref sig .tc .vmem S128x128 .f32) (harg3 : arg3.IsWhole) (arg4 : Memref sig .tc .vmem S128x128 .f32) (harg4 : arg4.IsWhole) (arg5 : Memref sig .tc .vmem S128x1 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S128x128 .f32) (harg10 : arg10.IsWhole) (arg11 : Memref sig .tc .vmem S128x128 .f32) (harg11 : arg11.IsWhole) (hc0 : ¬cond0_0 i) (hc1 : cond0_1 i) (x0 : Vec F S128x128 .f32) (x1 : Vec F S128x128 .f32) (x2 : Vec F S128x1 .f32) (x3 : Vec F S1x128 .f32) (x4 : Vec F S1x128 .f32) (x5 : Vec F S1x1 .f32) (x6 : Vec F S1x1 .f32) (xs0 : Vec F S128x128 .f32) :
    sout0_C_0 c i arg3 harg3 arg4 harg4 arg5 harg5 arg6 harg6 arg7 harg7 arg8 harg8 arg9 harg9 arg10 harg10 arg11 harg11 hc0 hc1 x0 x1 x2 x3 x4 x5 x6 xs0 = k0_pay2 x0 x1 xs0 := by
  unfold sout0_C_0
  rw [View.read_writes_eq_canon _ _ _ (scover0_C_0 c i arg3 harg3 arg4 harg4 arg5 harg5 arg6 harg6 arg7 harg7 arg8 harg8 arg9 harg9 arg10 harg10 arg11 harg11 hc0 hc1 x0 x1 x2 x3 x4 x5 x6 xs0)]
  unfold kernelRun0_C
  dsimp only
  sl_unfold_words
  rw [View.canon_unit_zero hz]
  simp only [View.readAt_eq_ld, harg3.read_unread, harg4.read_unread, harg11.read_unread, View.ld_unit_zero (S := S128x128) hz]

/-- and the output block at the final value of the stepped accumulator and the side blocks. -/
theorem out_C (c : Dev nD) (i : grid0.Coords) (arg3 : Memref sig .tc .vmem S128x128 .f32) (harg3 : arg3.IsWhole) (arg4 : Memref sig .tc .vmem S128x128 .f32) (harg4 : arg4.IsWhole) (arg5 : Memref sig .tc .vmem S128x1 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S128x128 .f32) (harg10 : arg10.IsWhole) (arg11 : Memref sig .tc .vmem S128x128 .f32) (harg11 : arg11.IsWhole) (hc0 : ¬cond0_0 i) (hc1 : cond0_1 i) (x0 : Vec F S128x128 .f32) (x1 : Vec F S128x128 .f32) (x2 : Vec F S128x1 .f32) (x3 : Vec F S1x128 .f32) (x4 : Vec F S1x128 .f32) (x5 : Vec F S1x1 .f32) (x6 : Vec F S1x1 .f32) (xs0 : Vec F S128x128 .f32) :
    out0_C_7 c i arg3 harg3 arg4 harg4 arg5 harg5 arg6 harg6 arg7 harg7 arg8 harg8 arg9 harg9 arg10 harg10 arg11 harg11 hc0 hc1 x0 x1 x2 x3 x4 x5 x6 xs0 = k0_pay3 (k0_pay2 x0 x1 xs0) x2 x3 x4 x5 x6 := by
  unfold out0_C_7
  rw [View.read_writes_eq_canon _ _ _ (cover0_C_7 c i arg3 harg3 arg4 harg4 arg5 harg5 arg6 harg6 arg7 harg7 arg8 harg8 arg9 harg9 arg10 harg10 arg11 harg11 hc0 hc1 x0 x1 x2 x3 x4 x5 x6 xs0)]
  unfold kernelRun0_C
  dsimp only
  sl_unfold_words
  rw [View.canon_unit_zero hz, View.readCov_unit_zero (S := S128x128) _ hz]
  simp only [View.readAt_eq_ld, harg3.read_unread, harg4.read_unread, harg5.read_unread, harg6.read_unread, harg7.read_unread,
    harg8.read_unread, harg9.read_unread, harg11.read_unread, View.ld_unit_zero (S := S128x128) hz, View.ld_unit_zero (S := S128x1) hz,
    View.ld_unit_zero (S := S1x128) hz, View.ld_unit_zero (S := S1x1) hz]

end Cert.KernelIdeal.Pieces

end
-- ==== Proof.Steps.lean ====
/-
  The accumulator and the output block point by point. At a point whose k is 0 the accumulator ends at the step taken
  from the stored zero; at any other point at the step taken from what the point before left; the step's two blocks
  are the point's x and weight blocks. At a point whose k is 7 the output block is the final value of the accumulator
  as that point leaves it and of the point's five side blocks.
-/
import proofs.«116651_j5944234738210_1_alg».proof.Proof.Gen.KernelIdeal.Value
import proofs.«116651_j5944234738210_1_alg».proof.Proof.Pieces

noncomputable section

open Idealize.ShloMosaic Idealize.ShloMosaic.TcCoe Idealize.SL.Sem

namespace Cert.KernelIdeal.Steps

open Cert.KernelIdeal Cert.KernelIdeal.Gen

variable {F : FTy → Type} [FloatOps F]
variable (m : (ℓ : Loc nD τ sig) → Buf (Elt F) ℓ)

/-- At a point with k = 0: the step from the stored zero, whatever the accumulator held. -/
theorem scAt_first (c : Dev nD) (t : Fin cfg0.N) (h0 : t.val % 8 = 0) (acc : Vec F S128x128 .f32) :
    Value.scAt0_0 m c t.val t.isLt acc = k0_pay2 (iblk m c 0 t) (iblk m c 1 t) k0_pay1 := by
  have h1 : ¬t.val % 8 = 7 := by omega
  unfold Value.scAt0_0
  rw [dif_pos h0, dif_neg h1]
  exact Pieces.sout_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t)

/-- At a point with k ≠ 0: the step from what the accumulator held. -/
theorem scAt_next (c : Dev nD) (t : Fin cfg0.N) (h0 : ¬t.val % 8 = 0) (acc : Vec F S128x128 .f32) :
    Value.scAt0_0 m c t.val t.isLt acc = k0_pay2 (iblk m c 0 t) (iblk m c 1 t) acc := by
  unfold Value.scAt0_0
  rw [dif_neg h0]
  by_cases h1 : t.val % 8 = 7
  · rw [dif_pos h1]
    exact Pieces.sout_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) acc
  · rw [dif_neg h1]
    exact Pieces.sout_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) acc

/-- At a point with k = 7: the output block is the final value of the accumulator the point leaves. -/
theorem out_last (c : Dev nD) (t : Fin cfg0.N) (h1 : t.val % 8 = 7) :
    (outsAt0 m c t.val t.isLt).1
      = k0_pay3 (outsAt0 m c t.val t.isLt).2 (iblk m c 2 t) (iblk m c 3 t) (iblk m c 4 t) (iblk m c 5 t) (iblk m c 6 t) := by
  have h0 : ¬t.val % 8 = 0 := by omega
  rw [outsAt0_C m c t h0 h1]
  dsimp only
  rw [Pieces.sout_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2]
  exact Pieces.out_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2

end Cert.KernelIdeal.Steps

end
-- ==== Proof.SumLaws.lean ====
/-
  The two summed identities behind the kernel's rearrangement, over any finite index type and for rows of REAL numbers
  read in the extended reals: with X = Σ max(a - w, 0),
      Σ min(a, w) = Σ a - X          (pointwise: min(a, w) = a - max(a - w, 0)),
      Σ max(w - a, 0) = (X + Σ w) - Σ a   (pointwise: max(w - a, 0) = max(a - w, 0) + w - a).
  Both are identities of real numbers; the extended-real operations on coerced reals are the real ones, so the
  coercion is pushed outward through min, max, -, + and the finite sums, and the real identity closes the goal.
  Also here: a sigmoid is a real number at every extended real (0 at -∞, 1 at +∞).
-/
import Mathlib
import Idealize.ShloMosaic.PureOps.Ideal

open Idealize.ShloMosaic

namespace Cert.Tversky

/-- A finite sum of coerced reals is the coerced real sum. -/
theorem sum_coe {ι : Type*} (s : Finset ι) (f : ι → ℝ) :
    ∑ k ∈ s, ((f k : ℝ) : EReal) = ((∑ k ∈ s, f k : ℝ) : EReal) := by
  classical
  induction s using Finset.induction_on with
  | empty => simp
  | insert a s ha ih => rw [Finset.sum_insert ha, Finset.sum_insert ha, ih, EReal.coe_add]

/-- The sigmoid of any extended real is a real number. -/
theorem logistic_real (x : EReal) : ∃ r : ℝ, Ideal.logistic x = (r : EReal) := by
  induction x using EReal.rec with
  | bot => exact ⟨0, by simp⟩
  | coe r => exact ⟨_, Ideal.logistic_coe r⟩
  | top => exact ⟨1, by simp⟩

/-- The coercion of the reals commutes with max and min (it is monotone). -/
theorem coe_max (x y : ℝ) : max (x : EReal) (y : EReal) = ((max x y : ℝ) : EReal) :=
  (EReal.coe_strictMono.monotone.map_max).symm
theorem coe_min (x y : ℝ) : min (x : EReal) (y : EReal) = ((min x y : ℝ) : EReal) :=
  (EReal.coe_strictMono.monotone.map_min).symm

variable {ι : Type*} [Fintype ι]

/-- Σ max(a - w, 0) of real rows is a real. -/
theorem sum_relu_coe (a w : ι → ℝ) :
    ∑ k, max ((a k : EReal) - (w k : EReal)) 0 = ((∑ k, max (a k - w k) 0 : ℝ) : EReal) := by
  rw [← sum_coe]
  refine Finset.sum_congr rfl fun k _ => ?_
  rw [← EReal.coe_sub, ← EReal.coe_zero, coe_max]

/-- Σ min(a, w) = Σ a - Σ max(a - w, 0). -/
theorem sum_min_eq (a w : ι → ℝ) :
    ∑ k, min (a k : EReal) (w k : EReal)
      = (∑ k, (a k : EReal)) - ∑ k, max ((a k : EReal) - (w k : EReal)) 0 := by
  rw [sum_relu_coe, sum_coe, ← EReal.coe_sub, ← Finset.sum_sub_distrib, ← sum_coe]
  refine Finset.sum_congr rfl fun k _ => ?_
  rw [coe_min]
  congr 1
  rcases le_total (a k) (w k) with h | h
  · rw [min_eq_left h, max_eq_right (by linarith)]; ring
  · rw [min_eq_right h, max_eq_left (by linarith)]; ring

/-- Σ max(w - a, 0) = (Σ max(a - w, 0) + Σ w) - Σ a. -/
theorem sum_relu_rev_eq (a w : ι → ℝ) :
    ∑ k, max ((w k : EReal) - (a k : EReal)) 0
      = (∑ k, max ((a k : EReal) - (w k : EReal)) 0 + ∑ k, (w k : EReal)) - ∑ k, (a k : EReal) := by
  rw [sum_relu_coe, sum_relu_coe, sum_coe, sum_coe, ← EReal.coe_add, ← EReal.coe_sub,
    ← Finset.sum_add_distrib, ← Finset.sum_sub_distrib]
  congr 1
  refine Finset.sum_congr rfl fun k _ => ?_
  rcases le_total (a k) (w k) with h | h
  · rw [max_eq_left (by linarith), max_eq_right (by linarith)]; ring
  · rw [max_eq_right (by linarith), max_eq_left (by linarith)]; ring

end Cert.Tversky
-- ==== Proof.Spec.lean ====
/-
  The two forms of the result, index by index over the literal shapes, and that they are one function.

  For rows x[b, ·] and w[p, ·] of sigmoids (reals in [0, 1] whatever the arguments):
      sumMin b p = Σ_f min(σ x[b,f], σ w[p,f]),  sumPos b p = Σ_f max(σ x[b,f] - σ w[p,f], 0),
      sumNeg b p = Σ_f max(σ w[p,f] - σ x[b,f], 0),  rowSum x b = Σ_f σ x[b,f].
  `G` is the ratio taken of the three pair sums; `Gk` takes sumMin as rowSum x - sumPos and sumNeg as
  (sumPos + rowSum w) - rowSum x. `Gk_eq_G` is the two summed identities of SumLaws, the sigmoids being reals.
  `sum_blocks`: a sum over 1024 columns is the sum over 8 blocks of the sums over the 128 columns 128·k + l.
-/
import Idealize.ShloMosaic.PureOps.Ideal.Laws
import Idealize.ShloMosaic.Lib.ValueIdx
import proofs.«116651_j5944234738210_1_alg».proof.Proof.SumLaws

noncomputable section

open Idealize.ShloMosaic Idealize.ShloMosaic.ValueIdx

namespace Cert.Tversky

/-- An extended-real matrix over literal extents. -/
abbrev Mat (a b : Nat) : Type := (⟨2, ![a, b]⟩ : Shape).Idx → EReal

/-- The sigmoid on the extended reals. -/
abbrev sg (x : EReal) : EReal := Ideal.logistic x

/-- The smoothing constant, the one f32 literal both programs add to the denominator. -/
abbrev eps : EReal := Ideal.ofBits .f32 0x322BCC77#32

/-- The Tversky ratio of an intersection I and two differences X, W, plus the bias. -/
def ratio (I X W α β bias : EReal) : EReal := Ideal.div I (I + α * X + β * W + eps) + bias

def sumMin (x w : Mat 512 1024) (b p : Fin 512) : EReal := ∑ f : Fin 1024, min (sg (x (ix2 b f))) (sg (w (ix2 p f)))
def sumPos (x w : Mat 512 1024) (b p : Fin 512) : EReal := ∑ f : Fin 1024, max (sg (x (ix2 b f)) - sg (w (ix2 p f))) 0
def sumNeg (x w : Mat 512 1024) (b p : Fin 512) : EReal := ∑ f : Fin 1024, max (sg (w (ix2 p f)) - sg (x (ix2 b f))) 0
def rowSum (x : Mat 512 1024) (b : Fin 512) : EReal := ∑ f : Fin 1024, sg (x (ix2 b f))

/-- The result with the three pair sums taken separately. -/
def G (x w : Mat 512 1024) (bias : (⟨1, ![512]⟩ : Shape).Idx → EReal) (α β : (⟨0, ![]⟩ : Shape).Idx → EReal) : Mat 512 512 :=
  fun i => ratio (sumMin x w (i 0) (i 1)) (sumPos x w (i 0) (i 1)) (sumNeg x w (i 0) (i 1)) (α ix0) (β ix0) (bias (ix1 (i 1)))

/-- The result from the one pair sum sumPos and the two row sums. -/
def Gk (x w : Mat 512 1024) (bias : (⟨1, ![512]⟩ : Shape).Idx → EReal) (α β : (⟨0, ![]⟩ : Shape).Idx → EReal) : Mat 512 512 :=
  fun i => ratio (rowSum x (i 0) - sumPos x w (i 0) (i 1)) (sumPos x w (i 0) (i 1))
    ((sumPos x w (i 0) (i 1) + rowSum w (i 1)) - rowSum x (i 0)) (α ix0) (β ix0) (bias (ix1 (i 1)))

theorem Gk_eq_G (x w : Mat 512 1024) (bias : (⟨1, ![512]⟩ : Shape).Idx → EReal) (α β : (⟨0, ![]⟩ : Shape).Idx → EReal) :
    Gk x w bias α β = G x w bias α β := by
  funext i
  choose a ha using fun f : Fin 1024 => logistic_real (x (ix2 (i 0) f))
  choose v hv using fun f : Fin 1024 => logistic_real (w (ix2 (i 1) f))
  have e1 : sumMin x w (i 0) (i 1) = rowSum x (i 0) - sumPos x w (i 0) (i 1) := by
    simp only [sumMin, rowSum, sumPos, sg, ha, hv]
    exact sum_min_eq a v
  have e2 : sumNeg x w (i 0) (i 1) = (sumPos x w (i 0) (i 1) + rowSum w (i 1)) - rowSum x (i 0) := by
    simp only [sumNeg, rowSum, sumPos, sg, ha, hv]
    exact sum_relu_rev_eq a v
  simp only [Gk, G, e1, e2]

/-- A sum over 1024 columns, block by block: 8 blocks of 128 columns, column 128·k + l of block k. -/
theorem sum_blocks {M : Type*} [AddCommMonoid M] (g : Fin 1024 → M) :
    ∑ f : Fin 1024, g f = ∑ k : Fin 8, ∑ l : Fin 128, g ⟨128 * k.val + l.val, by have := k.isLt; have := l.isLt; omega⟩ := by
  have h := Fintype.sum_prod_type' (fun (k : Fin 8) (l : Fin 128) =>
    g ⟨128 * k.val + l.val, by have := k.isLt; have := l.isLt; omega⟩)
  rw [← h]
  refine (Fintype.sum_equiv (finProdFinEquiv (m := 8) (n := 128)) _ (fun f : Fin (8 * 128) => g f) (fun x => ?_)).symm
  congr 1
  apply Fin.ext
  show 128 * x.1.val + x.2.val = x.2.val + 128 * x.1.val
  omega

end Cert.Tversky
-- ==== Proof.LibLayout.lean ====
/-
  Three layout operations read at an index, at rank 3, with every index written by its coordinates. A value that
  depends on the first and last coordinates only is laid out along a middle axis of extent one and then repeated along
  it; a value that depends on the last two coordinates only is given a leading axis of extent one and then repeated
  along that. Reading the result at `(i, j, k)` reads the operand at `(i, k)`, respectively `(j, k)`: a cast keeps
  the row-major position, and a broadcast reads coordinate zero on an axis of extent one.
-/
import Idealize.ShloMosaic.Lib.Pipeline.Value
import Idealize.ShloMosaic.Lib.ValueIdx
import Idealize.ShloMosaic.Lib.ValueLayout

namespace Idealize.ShloMosaic.ValueIdx

open Idealize.ShloMosaic

variable {α : Type}

/-- An `[a, c]` array cast to `[a, 1, c]` reads, at `(i, u, k)`, the operand at `(i, k)`: both have row-major
    position `i · c + k`. -/
theorem shapeCast_ac_a1c_apply {a c : ℕ} (x : (⟨2, ![a, c]⟩ : Shape).Idx → α)
    (h : (⟨2, ![a, c]⟩ : Shape).ShapeCasts ⟨3, ![a, 1, c]⟩) (i : Fin a) (u : Fin 1) (k : Fin c) :
    shapeCast ⟨3, ![a, 1, c]⟩ x h (ix3 i u k) = x (ix2 i k) :=
  shapeCast_apply x h _ _ (by
    have hu : u.val = 0 := by omega
    rw [Shape.rowMajor_val_three, Shape.rowMajor_val_two]
    show i.val * c + k.val = (i.val * 1 + u.val) * c + k.val
    rw [hu, Nat.mul_one, Nat.add_zero])

/-- An `[a, 1, c]` array broadcast to `[a, b, c]` reads, at `(i, j, k)`, the operand at `(i, 0, k)`. -/
theorem broadcastTo_a1c_abc_apply {a b c : ℕ} (v : (⟨3, ![a, 1, c]⟩ : Shape).Idx → α)
    (h : (⟨3, ![a, 1, c]⟩ : Shape).Broadcasts ⟨3, ![a, b, c]⟩) (i : Fin a) (j : Fin b) (k : Fin c) :
    broadcastTo ⟨3, ![a, b, c]⟩ v h (ix3 i j k) = v (ix3 i (0 : Fin 1) k) := by
  refine broadcastTo_apply v h (ix3 i j k) (ix3 i (0 : Fin 1) k) fun ax => ?_
  match ax with
  | ⟨0, _⟩ =>
    show i.val = if a = 1 then 0 else i.val
    split
    · have := i.isLt; omega
    · rfl
  | ⟨1, _⟩ =>
    show (0 : ℕ) = if (1 : ℕ) = 1 then 0 else j.val
    rw [if_pos rfl]
  | ⟨2, _⟩ =>
    show k.val = if c = 1 then 0 else k.val
    split
    · have := k.isLt; omega
    · rfl

/-- A `[1, b, c]` array broadcast to `[a, b, c]` reads, at `(i, j, k)`, the operand at `(0, j, k)`. -/
theorem broadcastTo_1bc_abc_apply {a b c : ℕ} (v : (⟨3, ![1, b, c]⟩ : Shape).Idx → α)
    (h : (⟨3, ![1, b, c]⟩ : Shape).Broadcasts ⟨3, ![a, b, c]⟩) (i : Fin a) (j : Fin b) (k : Fin c) :
    broadcastTo ⟨3, ![a, b, c]⟩ v h (ix3 i j k) = v (ix3 (0 : Fin 1) j k) := by
  refine broadcastTo_apply v h (ix3 i j k) (ix3 (0 : Fin 1) j k) fun ax => ?_
  match ax with
  | ⟨0, _⟩ =>
    show (0 : ℕ) = if (1 : ℕ) = 1 then 0 else i.val
    rw [if_pos rfl]
  | ⟨1, _⟩ =>
    show j.val = if b = 1 then 0 else j.val
    split
    · have := j.isLt; omega
    · rfl
  | ⟨2, _⟩ =>
    show k.val = if c = 1 then 0 else k.val
    split
    · have := k.isLt; omega
    · rfl

end Idealize.ShloMosaic.ValueIdx
-- ==== Proof.LibColumn.lean ====
/-
  One column broadcast over many. A `[a, 1]` array broadcast to `[a, b]` holds, at `(p, c)`, the operand's
  entry `(p, 0)`: every column of the result is the operand's one column. (The row form, `[1, b]` to `[a, b]`,
  is the library's `broadcastTo_1b_ab_apply`.) Also the host's `broadcast_in_dim` of a vector `[a]` to the column
  `[a, 1]` along axis 0, read at `(p, u)`: the vector's entry `p`.
-/
import Idealize.ShloMosaic.Lib.Pipeline.Value
import Idealize.ShloMosaic.Lib.ValueIdx
import Idealize.ShloMosaic.Lib.ValueLayout

namespace Cert.LibColumn

open Idealize.ShloMosaic Idealize.ShloMosaic.ValueIdx

variable {α : Type}

/-- An `[a, 1]` array broadcast to `[a, b]` reads, at `(p, c)`, the operand's one column at row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector `[a]` placed by `broadcast_in_dim` along axis 0 of the column shape `[a, 1]` reads, at `(p, u)`,
    the vector's entry `p`. -/
theorem broadcastInDim_a_a1_apply {a : ℕ} (v : (⟨1, ![a]⟩ : Shape).Idx → α)
    (h : (⟨1, ![a]⟩ : Shape).BroadcastsInDim ⟨2, ![a, 1]⟩ (![0] : Fin 1 → Fin 2)) (p : Fin a) (u : Fin 1) :
    broadcastInDim ⟨2, ![a, 1]⟩ ![0] h v (ix2 p u) = v (ix1 p) := by
  refine broadcastInDim_apply _ h v (ix2 p u) (ix1 p) fun ax => ?_
  match ax with
  | ⟨0, _⟩ =>
    show p.val = if a = 1 then 0 else p.val
    split
    · have := p.isLt; omega
    · rfl

end Cert.LibColumn
-- ==== Proof.Payloads.lean ====
/-
  The kernel body's three stored values, each read at one index of its 128 × 128 block.

  The reset value is zero. The accumulation step adds to the accumulator, at (r, q), the block's share of
  Σ max(σ x - σ w, 0): the sum over the block's 128 columns l of max(σ x0[r, l] - σ x1[q, l], 0) — x0's row r is laid
  along a middle unit axis and repeated over q, x1's row q along a leading unit axis and repeated over r, the
  difference clipped at zero and summed over the last axis. The final value, from the accumulator X and the blocks of
  the two row sums a (a column) and s (a row), the bias row and the two scalars, is the ratio of
  a - X, X and (X + s) - a, plus the bias.
-/
import proofs.«116651_j5944234738210_1_alg».proof.Proof.Gen.KernelIdeal.Skeleton
import proofs.«116651_j5944234738210_1_alg».proof.Proof.Spec
import proofs.«116651_j5944234738210_1_alg».proof.Proof.LibLayout
import proofs.«116651_j5944234738210_1_alg».proof.Proof.LibColumn
import Idealize.ShloMosaic.Lib.Pipeline.Value
import Idealize.ShloMosaic.Lib.ValueLayout

noncomputable section

open Idealize.ShloMosaic Idealize.ShloMosaic.ValueIdx Cert.Tversky

namespace Cert.KernelIdeal.Pay

open Cert.KernelIdeal Cert.KernelIdeal.Gen

/-- One block's share of Σ max(σ x - σ w, 0) at (r, q): the sum over the block's 128 columns. -/
def blockPos (x0 x1 : FVec Ideal S128x128 .f32) (r q : Fin 128) : EReal :=
  ∑ l : Fin 128, max (sg (x0 (ix2 r l)) - sg (x1 (ix2 q l))) 0

/-- The reset stores zero everywhere. -/
theorem pay1_apply (j : S128x128.Idx) : k0_pay1 (F := Ideal) j = 0 := by
  unfold k0_pay1
  rw [shapeCast_self]
  exact Ideal.ofBits_zero_f32

/-- A sum over the last axis of a 128 × 128 × 128 array, at (r, q): the sum over l of the entries (r, q, l). -/
theorem lane_sum (src : FVec Ideal S128x128x128 .f32) (r q : Fin 128) :
    multiReduction .add [2] S128x128 src 0x00000000#32 reduces_S128x128x128_S128x128 (.inl rfl) rfl (ix2 r q)
      = ∑ l : Fin 128, src (ix3 r q l) := by
  refine (Ideal.multiReduction_add_single src 0x00000000#32 reduces_S128x128x128_S128x128 (.inl rfl) rfl (ix2 r q)).trans ?_
  refine Finset.sum_congr rfl fun l _ => congrArg src ?_
  funext a
  match a with
  | ⟨0, _⟩ => rfl
  | ⟨1, _⟩ => rfl
  | ⟨2, _⟩ => rfl

/-- The accumulation step at (r, q): the accumulator there plus the block's share. -/
theorem pay2_apply (x0 x1 acc : FVec Ideal S128x128 .f32) (r q : Fin 128) :
    k0_pay2 (F := Ideal) x0 x1 acc (ix2 r q) = acc (ix2 r q) + blockPos x0 x1 r q := by
  unfold k0_pay2
  rw [shapeCast_self, addf_apply]
  refine congrArg (acc (ix2 r q) + ·) ?_
  refine (lane_sum _ r q).trans ?_
  unfold blockPos
  refine Finset.sum_congr rfl fun l _ => ?_
  rw [maximumf_apply, subf_apply, broadcast_apply, broadcastTo_a1c_abc_apply, broadcastTo_1bc_abc_apply,
    shapeCast_ac_a1c_apply, shapeCast_ab_1ab_apply]
  show max (Ideal.logistic (x0 (ix2 r l)) - Ideal.logistic (x1 (ix2 q l))) (Ideal.ofBits .f32 0x00000000#32) = _
  rw [Ideal.ofBits_zero_f32]

/-- The one entry of a 1 × 1 block. -/
theorem extract00 (v : FVec Ideal S1x1 .f32) :
    extractAt ![0, 0] v inpos_S1x1_p0_0 = v (ix2 (0 : Fin 1) (0 : Fin 1)) := by
  unfold extractAt
  refine congrArg v ?_
  funext a
  match a with
  | ⟨0, _⟩ => rfl
  | ⟨1, _⟩ => rfl

/-- The final value at (r, q). -/
theorem pay3_apply (acc : FVec Ideal S128x128 .f32) (a : FVec Ideal S128x1 .f32) (s bias : FVec Ideal S1x128 .f32)
    (al be : FVec Ideal S1x1 .f32) (r q : Fin 128) :
    k0_pay3 (F := Ideal) acc a s bias al be (ix2 r q)
      = ratio (a (ix2 r (0 : Fin 1)) - acc (ix2 r q)) (acc (ix2 r q))
          ((acc (ix2 r q) + s (ix2 (0 : Fin 1) q)) - a (ix2 r (0 : Fin 1)))
          (al (ix2 (0 : Fin 1) (0 : Fin 1))) (be (ix2 (0 : Fin 1) (0 : Fin 1))) (bias (ix2 (0 : Fin 1) q)) := by
  unfold k0_pay3
  simp only [shapeCast_self]
  rw [addf_apply, divf_apply, addf_apply, addf_apply, addf_apply, mulf_apply, mulf_apply, subf_apply, subf_apply,
    addf_apply, broadcast_apply, broadcast_apply, broadcast_apply]
  simp only [Cert.LibColumn.broadcastTo_a1_ab_apply, broadcastTo_1b_ab_apply, extract00]
  rfl

end Cert.KernelIdeal.Pay

end
-- ==== Proof.Blocks.lean ====
/-
  Where each window's block sits in its array. The grid's 128 points run over (i, j, k) ∈ 4 × 4 × 8 with k fastest:
  point t has i = t / 32, j = (t / 8) mod 4, k = t mod 8. The x window's block is (i, k), the weight window's (j, k),
  the row-sum column's (i, 0), the row-sum row's and the bias row's (0, j), the two scalars' (0, 0), the output's
  (i, j). An element (r, l) of a block sits at block index × block size + its own coordinate on each axis.
-/
import proofs.«116651_j5944234738210_1_alg».proof.Proof.Gen.KernelIdeal.Frame
import Idealize.ShloMosaic.Lib.Pipeline.Value
import Idealize.ShloMosaic.Lib.ValueIdx

noncomputable section

open Idealize.ShloMosaic Idealize.ShloMosaic.TcCoe Idealize.SL.Sem Idealize.ShloMosaic.ValueIdx

namespace Cert.KernelIdeal.Blocks

open Cert.KernelIdeal Cert.KernelIdeal.Gen

variable {F : FTy → Type} [FloatOps F]
variable (m : (ℓ : Loc nD τ sig) → Buf (Elt F) ℓ)

/-- The printed index maps, decided over the grid. -/
theorem idx_facts : ∀ t : Fin cfg0.N,
    win0_0.index t (0 : Fin 2) = t.val / 32 ∧ win0_0.index t (1 : Fin 2) = t.val % 8
    ∧ win0_1.index t (0 : Fin 2) = t.val / 8 % 4 ∧ win0_1.index t (1 : Fin 2) = t.val % 8
    ∧ win0_2.index t (0 : Fin 2) = t.val / 32 ∧ win0_2.index t (1 : Fin 2) = 0
    ∧ win0_3.index t (0 : Fin 2) = 0 ∧ win0_3.index t (1 : Fin 2) = t.val / 8 % 4
    ∧ win0_4.index t (0 : Fin 2) = 0 ∧ win0_4.index t (1 : Fin 2) = t.val / 8 % 4
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val / 32 ∧ win0_7.index t (1 : Fin 2) = t.val / 8 % 4 :=
  (by decide +kernel : ∀ t : Fin grid0.N, _)

/-- The x block at point t, entry (r, l): x at row 128·(t/32) + r, column 128·(t mod 8) + l. -/
theorem iblk0_apply (c : Dev nD) (t : Fin cfg0.N) (r l : Fin 128) (R : Fin 512) (L : Fin 1024)
    (hR : R.val = 128 * (t.val / 32) + r.val) (hL : L.val = 128 * (t.val % 8) + l.val) :
    (iblk m c 0 t : Vec F S128x128 .f32) (ix2 r l) = m ((c : Thread nD τ).loc main_arg0) (ix2 R L) := by
  obtain ⟨e0, e1, -⟩ := idx_facts t
  unfold iblk
  rw [View.read_apply]
  show V m c main_arg0 _ = _
  rw [V_main_arg0]
  refine congrArg _ ?_
  funext a
  apply Fin.ext
  match a with
  | ⟨0, _⟩ => show win0_0.index t (0 : Fin 2) * 128 + 1 * r.val = R.val; omega
  | ⟨1, _⟩ => show win0_0.index t (1 : Fin 2) * 128 + 1 * l.val = L.val; omega

/-- The weight block at point t, entry (q, l): weight at row 128·((t/8) mod 4) + q, column 128·(t mod 8) + l. -/
theorem iblk1_apply (c : Dev nD) (t : Fin cfg0.N) (q l : Fin 128) (Q : Fin 512) (L : Fin 1024)
    (hQ : Q.val = 128 * (t.val / 8 % 4) + q.val) (hL : L.val = 128 * (t.val % 8) + l.val) :
    (iblk m c 1 t : Vec F S128x128 .f32) (ix2 q l) = m ((c : Thread nD τ).loc main_arg1) (ix2 Q L) := by
  obtain ⟨-, -, e0, e1, -⟩ := idx_facts t
  unfold iblk
  rw [View.read_apply]
  show V m c main_arg1 _ = _
  rw [V_main_arg1]
  refine congrArg _ ?_
  funext a
  apply Fin.ext
  match a with
  | ⟨0, _⟩ => show win0_1.index t (0 : Fin 2) * 128 + 1 * q.val = Q.val; omega
  | ⟨1, _⟩ => show win0_1.index t (1 : Fin 2) * 128 + 1 * l.val = L.val; omega

/-- The row-sum column's block at point t, entry (r, 0): the column at row 128·(t/32) + r. -/
theorem iblk2_apply (c : Dev nD) (t : Fin cfg0.N) (r : Fin 128) (R : Fin 512) (hR : R.val = 128 * (t.val / 32) + r.val) :
    (iblk m c 2 t : Vec F S128x1 .f32) (ix2 r (0 : Fin 1)) = V m c main_v7 (ix2 R (0 : Fin 1)) := by
  obtain ⟨-, -, -, -, e0, e1, -⟩ := idx_facts t
  unfold iblk
  rw [View.read_apply]
  show V m c main_v7 _ = _
  refine congrArg _ ?_
  funext a
  apply Fin.ext
  match a with
  | ⟨0, _⟩ => show win0_2.index t (0 : Fin 2) * 128 + 1 * r.val = R.val; omega
  | ⟨1, _⟩ => show win0_2.index t (1 : Fin 2) * 1 + 1 * 0 = 0; omega

/-- The row-sum row's block at point t, entry (0, q): the row at column 128·((t/8) mod 4) + q. -/
theorem iblk3_apply (c : Dev nD) (t : Fin cfg0.N) (q : Fin 128) (Q : Fin 512) (hQ : Q.val = 128 * (t.val / 8 % 4) + q.val) :
    (iblk m c 3 t : Vec F S1x128 .f32) (ix2 (0 : Fin 1) q) = V m c main_v16 (ix2 (0 : Fin 1) Q) := by
  obtain ⟨-, -, -, -, -, -, e0, e1, -⟩ := idx_facts t
  unfold iblk
  rw [View.read_apply]
  show V m c main_v16 _ = _
  refine congrArg _ ?_
  funext a
  apply Fin.ext
  match a with
  | ⟨0, _⟩ => show win0_3.index t (0 : Fin 2) * 1 + 1 * 0 = 0; omega
  | ⟨1, _⟩ => show win0_3.index t (1 : Fin 2) * 128 + 1 * q.val = Q.val; omega

/-- The bias row's block at point t, entry (0, q): the row at column 128·((t/8) mod 4) + q. -/
theorem iblk4_apply (c : Dev nD) (t : Fin cfg0.N) (q : Fin 128) (Q : Fin 512) (hQ : Q.val = 128 * (t.val / 8 % 4) + q.val) :
    (iblk m c 4 t : Vec F S1x128 .f32) (ix2 (0 : Fin 1) q) = V m c main_v17 (ix2 (0 : Fin 1) Q) := by
  obtain ⟨-, -, -, -, -, -, -, -, e0, e1, -⟩ := idx_facts t
  unfold iblk
  rw [View.read_apply]
  show V m c main_v17 _ = _
  refine congrArg _ ?_
  funext a
  apply Fin.ext
  match a with
  | ⟨0, _⟩ => show win0_4.index t (0 : Fin 2) * 1 + 1 * 0 = 0; omega
  | ⟨1, _⟩ => show win0_4.index t (1 : Fin 2) * 128 + 1 * q.val = Q.val; omega

/-- The first scalar's block is its one entry. -/
theorem iblk5_apply (c : Dev nD) (t : Fin cfg0.N) :
    (iblk m c 5 t : Vec F S1x1 .f32) (ix2 (0 : Fin 1) (0 : Fin 1)) = V m c main_v18 (ix2 (0 : Fin 1) (0 : Fin 1)) := by
  obtain ⟨-, -, -, -, -, -, -, -, -, -, e0, e1, -⟩ := idx_facts t
  unfold iblk
  rw [View.read_apply]
  show V m c main_v18 _ = _
  refine congrArg _ ?_
  funext a
  apply Fin.ext
  match a with
  | ⟨0, _⟩ => show win0_5.index t (0 : Fin 2) * 1 + 1 * 0 = 0; omega
  | ⟨1, _⟩ => show win0_5.index t (1 : Fin 2) * 1 + 1 * 0 = 0; omega

/-- The second scalar's block is its one entry. -/
theorem iblk6_apply (c : Dev nD) (t : Fin cfg0.N) :
    (iblk m c 6 t : Vec F S1x1 .f32) (ix2 (0 : Fin 1) (0 : Fin 1)) = V m c main_v19 (ix2 (0 : Fin 1) (0 : Fin 1)) := by
  obtain ⟨-, -, -, -, -, -, -, -, -, -, -, -, e0, e1, -⟩ := idx_facts t
  unfold iblk
  rw [View.read_apply]
  show V m c main_v19 _ = _
  refine congrArg _ ?_
  funext a
  apply Fin.ext
  match a with
  | ⟨0, _⟩ => show win0_6.index t (0 : Fin 2) * 1 + 1 * 0 = 0; omega
  | ⟨1, _⟩ => show win0_6.index t (1 : Fin 2) * 1 + 1 * 0 = 0; omega

end Cert.KernelIdeal.Blocks

end
-- ==== Proof.Fold.lean ====
/-
  What the accumulator holds after a grid point, at one entry. The 8 points that share an output block (i, j) run
  through k = 0 … 7; the accumulator is reset at k = 0 and each point adds its block's share, so after the point with
  coordinate k it holds the sum of the shares of blocks 0 … k, and after k = 7 the whole sum over the 1024 columns:
  for the entry (r, q) of block (i, j) that is Σ_f max(σ x[128 i + r, f] - σ weight[128 j + q, f], 0).
-/
import proofs.«116651_j5944234738210_1_alg».proof.Proof.Steps
import proofs.«116651_j5944234738210_1_alg».proof.Proof.Payloads
import proofs.«116651_j5944234738210_1_alg».proof.Proof.Blocks
import proofs.«116651_j5944234738210_1_alg».proof.Proof.Spec

noncomputable section

open Idealize.ShloMosaic Idealize.ShloMosaic.TcCoe Idealize.SL.Sem Idealize.ShloMosaic.ValueIdx Cert.Tversky

namespace Cert.KernelIdeal.Fold

open Cert.KernelIdeal Cert.KernelIdeal.Gen

variable (m : (ℓ : Loc nD τ sig) → Buf (Elt Ideal) ℓ)

/-- Point n's addend to the accumulator, at an entry of the block: its x and weight blocks' share (zero past the grid). -/
def addend (c : Dev nD) (n : ℕ) (y : S128x128.Idx) : EReal :=
  if h : n < cfg0.N then Pay.blockPos (iblk m c 0 ⟨n, h⟩) (iblk m c 1 ⟨n, h⟩) (y 0) (y 1) else 0

/-- Column 128·k + l of the 1024. -/
abbrev col (k : Fin 8) (l : Fin 128) : Fin 1024 := ⟨128 * k.val + l.val, by have := k.isLt; have := l.isLt; omega⟩

/-- The addend of a point with coordinates (i, j, k) at (r, q), in the argument arrays: the sum over the 128 columns of
    block k of max(σ x[128 i + r, ·] - σ weight[128 j + q, ·], 0). -/
theorem addend_apply (c : Dev nD) (n : ℕ) (h : n < cfg0.N) (r q : Fin 128) (B Pp : Fin 512) (k : Fin 8)
    (hB : B.val = 128 * (n / 32) + r.val) (hP : Pp.val = 128 * (n / 8 % 4) + q.val) (hk : n % 8 = k.val) :
    addend m c n (ix2 r q)
      = ∑ l : Fin 128, max (sg (m ((c : Thread nD τ).loc main_arg0) (ix2 B (col k l)))
          - sg (m ((c : Thread nD τ).loc main_arg1) (ix2 Pp (col k l)))) 0 := by
  unfold addend
  rw [dif_pos h]
  show Pay.blockPos (iblk m c 0 ⟨n, h⟩) (iblk m c 1 ⟨n, h⟩) r q = _
  unfold Pay.blockPos
  refine Finset.sum_congr rfl fun l _ => ?_
  rw [Blocks.iblk0_apply m c ⟨n, h⟩ r l B (col k l) hB (by show 128 * k.val + l.val = 128 * (n % 8) + l.val; omega),
    Blocks.iblk1_apply m c ⟨n, h⟩ q l Pp (col k l) hP (by show 128 * k.val + l.val = 128 * (n % 8) + l.val; omega)]

/-- After point t the accumulator holds, at any entry, the sum of the addends of the points from the last reset
    (point 8·(t / 8)) up to t. -/
theorem scratch_apply (c : Dev nD) (t : Fin cfg0.N) (y : S128x128.Idx) :
    (outsAt0 m c t.val t.isLt).2 y = 0 + ∑ s ∈ Finset.range (t.val % 8 + 1), addend m c (8 * (t.val / 8) + s) y := by
  have hN : cfg0.N = 128 := N_0
  rw [Value.soutsAt0_0_eq m c t]
  refine Pipeline.accAt_add_apply (ι := S128x128.Idx) (β := EReal) _ _ (fun _ => 0) (addend m c) (8 * (t.val / 8)) 7 ?_ ?_
    (t.val % 8) (by omega) _ y
  · intro h i
    obtain ⟨r, q, rfl⟩ : ∃ (r q : Fin 128), i = ix2 r q := ⟨i 0, i 1, eq_ix2 i⟩
    have e := Steps.scAt_first m c ⟨8 * (t.val / 8), h⟩ (by show 8 * (t.val / 8) % 8 = 0; omega) (VS0_0.read (Elt Ideal) VS0_0.junk)
    refine (congrFun e (ix2 r q)).trans ?_
    rw [Pay.pay2_apply, Pay.pay1_apply]
    unfold addend
    rw [dif_pos h]
  · intro n h acc i hlo hhi
    obtain ⟨r, q, rfl⟩ : ∃ (r q : Fin 128), i = ix2 r q := ⟨i 0, i 1, eq_ix2 i⟩
    have e := Steps.scAt_next m c ⟨n, h⟩ (by show ¬n % 8 = 0; omega) acc
    refine (congrFun e (ix2 r q)).trans ?_
    rw [Pay.pay2_apply]
    unfold addend
    rw [dif_pos h]

/-- After a point with k = 7 the accumulator holds, at (r, q), the whole sum over the 1024 columns for row
    B = 128·i + r of x and row P = 128·j + q of weight. -/
theorem scratch_last (c : Dev nD) (t : Fin cfg0.N) (h7 : t.val % 8 = 7) (r q : Fin 128) (B Pp : Fin 512)
    (hB : B.val = 128 * (t.val / 32) + r.val) (hP : Pp.val = 128 * (t.val / 8 % 4) + q.val) :
    (outsAt0 m c t.val t.isLt).2 (ix2 r q)
      = sumPos (m ((c : Thread nD τ).loc main_arg0)) (m ((c : Thread nD τ).loc main_arg1)) B Pp := by
  have hN : cfg0.N = 128 := N_0
  have ht := t.isLt
  rw [scratch_apply, h7, zero_add, Finset.sum_range]
  unfold sumPos
  rw [sum_blocks]
  refine Finset.sum_congr rfl fun k _ => ?_
  have hk := k.isLt
  exact addend_apply m c (8 * (t.val / 8) + k.val) (by omega) r q B Pp k (by omega) (by omega) (by omega)

end Cert.KernelIdeal.Fold

end
-- ==== Proof.HostPrefix.lean ====
/-
  What the host operations before the region leave in the arrays the region's windows read, index by index.

  The host computes the sigmoid of each matrix as 1 / (1 + exp (-x)), sums each row of it (the zero word plus the
  sum over the 1024 columns), and lays the row sums out as a column [512, 1]; the second matrix's column is then cast to
  a row [1, 512]. The bias vector is cast to a row [1, 512] and the two scalars to [1, 1]. So the first column
  holds at (b, 0) the row sum of σ x at b, the row holds at (0, p) the row sum of σ w at p, and the three casts
  hold the bias at p and the two scalars.
-/
import proofs.«116651_j5944234738210_1_alg».proof.Proof.Gen.KernelIdeal.Frame
import Idealize.ShloMosaic.Lib.StableHlo.Run
import Idealize.ShloMosaic.Lib.Pipeline.Value
import Idealize.ShloMosaic.Lib.ValueLayout
import Idealize.ShloMosaic.Lib.IdealHost
import proofs.«116651_j5944234738210_1_alg».proof.Proof.LibColumn
import proofs.«116651_j5944234738210_1_alg».proof.Proof.Spec

noncomputable section

namespace Cert.KernelIdeal.HostPrefix

open Cert.KernelIdeal Cert.KernelIdeal.Gen Idealize.ShloMosaic Idealize.ShloMosaic.TcCoe Idealize.ShloMosaic.ValueIdx
open Idealize.ShloMosaic.StableHlo Idealize.SL.Sem

/-- The extended-real contents of an f32 array. -/
abbrev Arr (s : Shape) : Type := (⟨s, .f32⟩ : BufTy).Contents (Elt Ideal)

/-- The sigmoid matrix as the host spells it: the f32 word of one, broadcast, divided by one plus exp (-x). -/
def sigArr (x : Arr S512x1024) : Arr S512x1024 :=
  Host.divf (broadcastInDim S512x1024 ![] bcast_S_S512x1024 (constant (F := Ideal) S_ .f32 0x3F800000#32))
    (addf (broadcastInDim S512x1024 ![] bcast_S_S512x1024 (constant (F := Ideal) S_ .f32 0x3F800000#32))
      (Host.exp (Host.negf x)))

/-- Its sums along the rows, from the zero word. -/
def rowSumArr (x : Arr S512x1024) : Arr S512 :=
  Host.reduceAdd (sigArr x) (constant (F := Ideal) S_ .f32 0x00000000#32) reducesTo_S512x1024_S512_d1 h_S_

/-- The host's sigmoid matrix holds the sigmoid of each entry. -/
theorem sigArr_apply (x : Arr S512x1024) (j : S512x1024.Idx) : sigArr x j = Cert.Tversky.sg (x j) := by
  show Ideal.div (broadcastInDim S512x1024 ![] bcast_S_S512x1024 (constant (F := Ideal) S_ .f32 0x3F800000#32) j)
      (broadcastInDim S512x1024 ![] bcast_S_S512x1024 (constant (F := Ideal) S_ .f32 0x3F800000#32) j
        + Ideal.exp (-(x j))) = _
  rw [broadcastInDim_scalar_apply]
  show Ideal.div (Ideal.ofBits .f32 0x3F800000#32) (Ideal.ofBits .f32 0x3F800000#32 + Ideal.exp (-(x j))) = _
  rw [Ideal.ofBits_one_f32]
  rfl

/-- The host's row sums are the row sums of the sigmoids. -/
theorem rowSumArr_apply (x : Arr S512x1024) (b : Fin 512) : rowSumArr x (ix1 b) = Cert.Tversky.rowSum x b := by
  unfold rowSumArr
  rw [hostReduceAdd_apply, Ideal.hostReduceAdd_single reducesTo_S512x1024_S512_d1 (by decide)]
  show Ideal.ofBits .f32 0x00000000#32 + _ = _
  rw [Ideal.ofBits_zero_f32, zero_add]
  unfold Cert.Tversky.rowSum
  refine Finset.sum_congr rfl fun k _ => ?_
  rw [sigArr_apply]
  exact congrArg (fun j => Cert.Tversky.sg (x j))
    (funext fun a => Fin.ext (by match a with | ⟨0, _⟩ => rfl | ⟨1, _⟩ => rfl))

variable (m : (ℓ : Loc nD τ sig) → Buf (Elt Ideal) ℓ) (c : Dev nD)

/-- The first column: at (b, 0) the row sum of σ x at b. -/
theorem v7_at (b : Fin 512) :
    V m c main_v7 (ix2 b (0 : Fin 1)) = Cert.Tversky.rowSum (m ((c : Thread nD τ).loc main_arg0)) b := by
  have e : (V m c main_v7 : S512x1.Idx → EReal)
      = broadcastInDim S512x1 ![0] bcast_S512_S512x1_0 (rowSumArr (m ((c : Thread nD τ).loc main_arg0))) := by
    dsimp only [Gen.V, Gen.hostOps0]; after_results; rfl
  refine (congrFun e (ix2 b (0 : Fin 1))).trans ?_
  rw [Cert.LibColumn.broadcastInDim_a_a1_apply, rowSumArr_apply]

/-- The second column cast to a row: at (0, p) the row sum of σ w at p. -/
theorem v16_at (p : Fin 512) :
    V m c main_v16 (ix2 (0 : Fin 1) p) = Cert.Tversky.rowSum (m ((c : Thread nD τ).loc main_arg1)) p := by
  have e : (V m c main_v16 : S1x512.Idx → EReal)
      = shapeCast S1x512 (broadcastInDim S512x1 ![0] bcast_S512_S512x1_0
          (rowSumArr (m ((c : Thread nD τ).loc main_arg1)))) shapeCasts_S512x1_S1x512 := by
    dsimp only [Gen.V, Gen.hostOps0]; after_results; rfl
  refine (congrFun e (ix2 (0 : Fin 1) p)).trans ?_
  rw [shapeCast_apply _ shapeCasts_S512x1_S1x512 (ix2 (0 : Fin 1) p) (ix2 p (0 : Fin 1)) (by
      rw [Shape.rowMajor_val_two, Shape.rowMajor_val_two]
      show p.val * 1 + 0 = 0 * 512 + p.val
      omega),
    Cert.LibColumn.broadcastInDim_a_a1_apply, rowSumArr_apply]

/-- The bias cast to a row: at (0, p) the bias at p. -/
theorem v17_at (p : Fin 512) :
    V m c main_v17 (ix2 (0 : Fin 1) p) = m ((c : Thread nD τ).loc main_arg2) (ix1 p) := by
  have e : (V m c main_v17 : S1x512.Idx → EReal)
      = shapeCast S1x512 (m ((c : Thread nD τ).loc main_arg2)) shapeCasts_S512_S1x512 := by
    dsimp only [Gen.V, Gen.hostOps0]; after_results; rfl
  refine (congrFun e (ix2 (0 : Fin 1) p)).trans ?_
  exact shapeCast_a_1a_apply _ shapeCasts_S512_S1x512 (0 : Fin 1) p

/-- A scalar cast to [1, 1] reads the scalar. -/
theorem scalar_cast_apply (x : Arr S_) (h : S_.ShapeCasts S1x1) :
    shapeCast S1x1 x h (ix2 (0 : Fin 1) (0 : Fin 1)) = x ix0 :=
  shapeCast_apply x h _ _ (by
    have h0 : (S_.rowMajor ix0).val = 0 := Shape.rowMajorPi_zero _ _
    rw [Shape.rowMajor_val_two]
    exact h0)

/-- The first scalar cast to [1, 1]. -/
theorem v18_at : V m c main_v18 (ix2 (0 : Fin 1) (0 : Fin 1)) = m ((c : Thread nD τ).loc main_arg3) ix0 := by
  have e : (V m c main_v18 : S1x1.Idx → EReal)
      = shapeCast S1x1 (m ((c : Thread nD τ).loc main_arg3)) shapeCasts_S_S1x1 := by
    dsimp only [Gen.V, Gen.hostOps0]; after_results; rfl
  refine (congrFun e (ix2 (0 : Fin 1) (0 : Fin 1))).trans ?_
  exact scalar_cast_apply _ shapeCasts_S_S1x1

/-- The second scalar cast to [1, 1]. -/
theorem v19_at : V m c main_v19 (ix2 (0 : Fin 1) (0 : Fin 1)) = m ((c : Thread nD τ).loc main_arg4) ix0 := by
  have e : (V m c main_v19 : S1x1.Idx → EReal)
      = shapeCast S1x1 (m ((c : Thread nD τ).loc main_arg4)) shapeCasts_S_S1x1 := by
    dsimp only [Gen.V, Gen.hostOps0]; after_results; rfl
  refine (congrFun e (ix2 (0 : Fin 1) (0 : Fin 1))).trans ?_
  exact scalar_cast_apply _ shapeCasts_S_S1x1

end Cert.KernelIdeal.HostPrefix

end
-- ==== Proof.KValue.lean ====
/-
  The output array after the run is the kernel's form of the result, `Gk` of the argument arrays.

  An output block (i, j) is written back once, after the point with k = 7 of its 8 points. What that point writes, at
  (r, q), is the final value of the accumulator — the whole sum Σ_f max(σ x[B, f] - σ weight[P, f], 0) for B = 128 i + r,
  P = 128 j + q — and of the side blocks, which hold the row sums of σ x at B and of σ weight at P, the bias at P and the
  two scalars: that is `Gk` at (B, P), the array index the block's entry (r, q) sits at. Every index (B, P) of the
  512 × 512 array lies in the block (B / 128, P / 128), whose write-back point is 32·(B / 128) + 8·(P / 128) + 7, so the
  written blocks cover the array.
-/
import proofs.«116651_j5944234738210_1_alg».proof.Proof.Fold
import proofs.«116651_j5944234738210_1_alg».proof.Proof.HostPrefix

noncomputable section

open Idealize.ShloMosaic Idealize.ShloMosaic.TcCoe Idealize.SL.Sem Idealize.ShloMosaic.ValueIdx Cert.Tversky
open Idealize.ShloMosaic.Pipeline (Dat)

namespace Cert.KernelIdeal.KValue

open Cert.KernelIdeal Cert.KernelIdeal.Gen

variable (m : (ℓ : Loc nD τ sig) → Buf (Elt Ideal) ℓ) (ρ : Dev nD → PrngReg)

/-- The kernel's form of the result, of the argument arrays as launched. -/
abbrev result (c : Dev nD) : S512x512.Idx → EReal :=
  Gk (m ((c : Thread nD τ).loc main_arg0)) (m ((c : Thread nD τ).loc main_arg1)) (m ((c : Thread nD τ).loc main_arg2))
    (m ((c : Thread nD τ).loc main_arg3)) (m ((c : Thread nD τ).loc main_arg4))

/-- What a write-back point writes is its block of `result`. -/
theorem flushed_eq (c : Dev nD) (t : Fin cfg0.N) (hf : (cfg0.win 7).flush t = true) :
    (dats m 0 c).flushed 7 t = ((cfg0.win 7).blk t).view.read (Elt Ideal) (result m c) := by
  have hN : cfg0.N = 128 := N_0
  have ht := t.isLt
  have h7 : t.val % 8 = 7 := (flush0_7 t).mp hf
  obtain ⟨-, -, -, -, -, -, -, -, -, -, -, -, -, -, e0, e1⟩ := Blocks.idx_facts t
  rw [Value.flushed7, Steps.out_last m c t h7]
  funext j
  obtain ⟨r, q, rfl⟩ : ∃ (r q : Fin 128), j = ix2 r q := ⟨j 0, j 1, eq_ix2 j⟩
  have hr := r.isLt
  have hq := q.isLt
  rw [View.read_apply]
  have hemb : ((cfg0.win 7).blk t).view.emb (ix2 r q)
      = ix2 (⟨128 * (t.val / 32) + r.val, by omega⟩ : Fin 512) (⟨128 * (t.val / 8 % 4) + q.val, by omega⟩ : Fin 512) := by
    funext a
    apply Fin.ext
    match a with
    | ⟨0, _⟩ => show win0_7.index t (0 : Fin 2) * 128 + 1 * r.val = 128 * (t.val / 32) + r.val; omega
    | ⟨1, _⟩ => show win0_7.index t (1 : Fin 2) * 128 + 1 * q.val = 128 * (t.val / 8 % 4) + q.val; omega
  rw [hemb]
  show k0_pay3 (F := Ideal) (outsAt0 m c t.val t.isLt).2 (iblk m c 2 t) (iblk m c 3 t) (iblk m c 4 t) (iblk m c 5 t) (iblk m c 6 t) (ix2 r q) = _
  rw [Pay.pay3_apply,
    Fold.scratch_last m c t h7 r q ⟨128 * (t.val / 32) + r.val, by omega⟩ ⟨128 * (t.val / 8 % 4) + q.val, by omega⟩ rfl rfl,
    Blocks.iblk2_apply m c t r ⟨128 * (t.val / 32) + r.val, by omega⟩ rfl,
    Blocks.iblk3_apply m c t q ⟨128 * (t.val / 8 % 4) + q.val, by omega⟩ rfl,
    Blocks.iblk4_apply m c t q ⟨128 * (t.val / 8 % 4) + q.val, by omega⟩ rfl,
    Blocks.iblk5_apply m c t, Blocks.iblk6_apply m c t,
    HostPrefix.v7_at, HostPrefix.v16_at, HostPrefix.v17_at, HostPrefix.v18_at, HostPrefix.v19_at]
  rfl

/-- An index of the array is in point t's block iff each coordinate is in the block's range on its axis. -/
theorem mem_blk (t : Fin cfg0.N) (i : S512x512.Idx) :
    i ∈ ((cfg0.win 7).blk t).view.set ↔ ∀ a : Fin 2, win0_7.index t a * S128x128.size a ≤ (i a).val ∧ (i a).val < win0_7.index t a * S128x128.size a + S128x128.size a := by
  show i ∈ ((View.whole main_v20).slice (win0_7.rect t)).set ↔ _
  rw [View.set_slice_whole, Rect.mem_set_unit]
  exact Iff.rfl

/-- Every index of the array lies in the block of some write-back point. -/
theorem cover (i : S512x512.Idx) : ∃ t : Fin cfg0.N, (cfg0.win 7).flush t = true ∧ i ∈ ((cfg0.win 7).blk t).view.set := by
  have hN : cfg0.N = 128 := N_0
  have h0 : (i 0).val < 512 := (i 0).isLt
  have h1 : (i 1).val < 512 := (i 1).isLt
  have hlt : 32 * ((i 0).val / 128) + 8 * ((i 1).val / 128) + 7 < cfg0.N := by rw [hN]; omega
  refine ⟨⟨32 * ((i 0).val / 128) + 8 * ((i 1).val / 128) + 7, hlt⟩, (flush0_7 _).mpr (by show (32 * ((i 0).val / 128) + 8 * ((i 1).val / 128) + 7) % 8 = 7; omega), ?_⟩
  obtain ⟨-, -, -, -, -, -, -, -, -, -, -, -, -, -, e0, e1⟩ :=
    Blocks.idx_facts ⟨32 * ((i 0).val / 128) + 8 * ((i 1).val / 128) + 7, hlt⟩
  rw [mem_blk]
  intro a
  match a with
  | ⟨0, _⟩ =>
    show win0_7.index ⟨32 * ((i 0).val / 128) + 8 * ((i 1).val / 128) + 7, hlt⟩ (0 : Fin 2) * 128 ≤ (i 0).val
      ∧ (i 0).val < win0_7.index ⟨32 * ((i 0).val / 128) + 8 * ((i 1).val / 128) + 7, hlt⟩ (0 : Fin 2) * 128 + 128
    rw [e0]
    show (32 * ((i 0).val / 128) + 8 * ((i 1).val / 128) + 7) / 32 * 128 ≤ (i 0).val ∧ (i 0).val < (32 * ((i 0).val / 128) + 8 * ((i 1).val / 128) + 7) / 32 * 128 + 128
    omega
  | ⟨1, _⟩ =>
    show win0_7.index ⟨32 * ((i 0).val / 128) + 8 * ((i 1).val / 128) + 7, hlt⟩ (1 : Fin 2) * 128 ≤ (i 1).val
      ∧ (i 1).val < win0_7.index ⟨32 * ((i 0).val / 128) + 8 * ((i 1).val / 128) + 7, hlt⟩ (1 : Fin 2) * 128 + 128
    rw [e1]
    show (32 * ((i 0).val / 128) + 8 * ((i 1).val / 128) + 7) / 8 % 4 * 128 ≤ (i 1).val ∧ (i 1).val < (32 * ((i 0).val / 128) + 8 * ((i 1).val / 128) + 7) / 8 % 4 * 128 + 128
    omega

/-- The output array after the run. -/
theorem final (c : Dev nD) : (dats m 0 c).arrAt 7 cfg0.N = result m c :=
  (dats m 0 c).arrAt_eq_of_cover 7 (result m c) (flushed_eq m c) cover

/-- The run, read: the output array at `result`, the arguments unchanged. -/
theorem run : θ_run defs (onTc (τ := τ) (main (F := Ideal))) ⟨m, fun _ => 0, ρ⟩ fun r => ∀ c : Dev nD,
      r.2.mem ((c : Thread nD τ).loc main_v20) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (Value.run_blocks m ρ)

end Cert.KernelIdeal.KValue

end
-- ==== Proof.RefValue.lean ====
/-
  The reference program's result, read index by index, is the ratio `G` of the three pair sums.

  The reference spells the sigmoid as 1 / (1 + exp (-x)); on the extended reals this is `Ideal.logistic` by
  definition once the f32 word of one is read as 1. Each of its three sums over the last axis is the initial value
  (the zero word, 0) plus the sum over the 1024 columns of the summand at [b, p, k]; the summands read the two
  sigmoid matrices at [b, k] and [p, k] through the broadcasts [512,1024] → [512,1,1024] → [512,512,1024] and
  [512,1024] → [1,512,1024] → [512,512,1024].
-/
import proofs.«116651_j5944234738210_1_alg».proof.Proof.Gen.ReferenceIdeal.Read
import proofs.«116651_j5944234738210_1_alg».proof.Proof.Spec
import Idealize.ShloMosaic.Lib.IdealHost

noncomputable section

namespace Cert.ReferenceIdeal.RefValue

open Cert.ReferenceIdeal Cert.ReferenceIdeal.Read Idealize.ShloMosaic Idealize.ShloMosaic.ValueIdx

/-- The extended-real contents of an f32 array of the reference. -/
abbrev Arr (s : Shape) : Type := (⟨s, .f32⟩ : BufTy).Contents (Elt Ideal)

/-- 1 / (1 + exp (-x)) with the f32 word of one is the sigmoid: the first argument. -/
theorem sigmoid_x (x0 : Arr S512x1024) (j : S512x1024.Idx) :
    val_main_v5 (F := Ideal) x0 j = Cert.Tversky.sg (x0 j) := by
  rw [val_main_v5_apply, val_main_v4_apply, val_main_cst_0_apply, val_main_v3_apply, val_main_v2_apply,
    val_main_cst_apply, val_main_v1_apply, val_main_v0_apply]
  simp only [Ideal.hostDivf_def, Ideal.ofBits_def, Ideal.addf_def, Ideal.hostUnary_exp_def, Ideal.hostNegf_def,
    Ideal.negf_def, Ideal.ofBits_one_f32]
  rfl

/-- The same for the second argument. -/
theorem sigmoid_w (x1 : Arr S512x1024) (j : S512x1024.Idx) :
    val_main_v12 (F := Ideal) x1 j = Cert.Tversky.sg (x1 j) := by
  rw [val_main_v12_apply, val_main_v11_apply, val_main_cst_2_apply, val_main_v10_apply, val_main_v9_apply,
    val_main_cst_1_apply, val_main_v8_apply, val_main_v7_apply]
  simp only [Ideal.hostDivf_def, Ideal.ofBits_def, Ideal.addf_def, Ideal.hostUnary_exp_def, Ideal.hostNegf_def,
    Ideal.negf_def, Ideal.ofBits_one_f32]
  rfl

/-- The first sigmoid matrix broadcast along the middle axis reads [b, k] at [b, p, k]. -/
theorem bx_at (x0 : Arr S512x1024) (b p : Fin 512) (k : Fin 1024) :
    val_main_v6 (F := Ideal) x0 (idx_main_v14 (idx_main_v17 (ix2 b p) k)) = Cert.Tversky.sg (x0 (ix2 b k)) := by
  rw [val_main_v6_apply, sigmoid_x]
  exact congrArg (fun j => Cert.Tversky.sg (x0 j))
    (funext fun a => by match a with | ⟨0, _⟩ => rfl | ⟨1, _⟩ => rfl)

/-- The second sigmoid matrix broadcast along the first axis reads [p, k] at [b, p, k]. -/
theorem bw_at (x1 : Arr S512x1024) (b p : Fin 512) (k : Fin 1024) :
    val_main_v13 (F := Ideal) x1 (idx_main_v15 (idx_main_v17 (ix2 b p) k)) = Cert.Tversky.sg (x1 (ix2 p k)) := by
  rw [val_main_v13_apply, sigmoid_w]
  exact congrArg (fun j => Cert.Tversky.sg (x1 j))
    (funext fun a => by match a with | ⟨0, _⟩ => rfl | ⟨1, _⟩ => rfl)

/-- The first sum is the sum of the minima. -/
theorem sumMin_at (x0 x1 : Arr S512x1024) (b p : Fin 512) :
    val_main_v17 (F := Ideal) x0 x1 (ix2 b p) = Cert.Tversky.sumMin x0 x1 b p := by
  rw [val_main_v17_apply, val_main_cst_3_apply]
  simp only [Ideal.ofBits_def, Ideal.ofBits_zero_f32, zero_add]
  unfold Cert.Tversky.sumMin
  refine Finset.sum_congr rfl fun k _ => ?_
  rw [val_main_v16_apply, val_main_v14_apply, val_main_v15_apply, bx_at, bw_at]
  rfl

/-- The second sum is the sum of the positive parts of σ x - σ w. -/
theorem sumPos_at (x0 x1 : Arr S512x1024) (b p : Fin 512) :
    val_main_v23 (F := Ideal) x0 x1 (ix2 b p) = Cert.Tversky.sumPos x0 x1 b p := by
  rw [val_main_v23_apply, val_main_cst_5_apply]
  simp only [Ideal.ofBits_def, Ideal.ofBits_zero_f32, zero_add]
  unfold Cert.Tversky.sumPos
  refine Finset.sum_congr rfl fun k _ => ?_
  rw [val_main_v22_apply, val_main_v20_apply, val_main_v18_apply, val_main_v19_apply, val_main_v21_apply,
    val_main_cst_4_apply]
  show max (val_main_v6 (F := Ideal) x0 (idx_main_v14 (idx_main_v17 (ix2 b p) k))
      - val_main_v13 (F := Ideal) x1 (idx_main_v15 (idx_main_v17 (ix2 b p) k))) (Ideal.ofBits .f32 0x00000000#32) = _
  rw [bx_at, bw_at, Ideal.ofBits_zero_f32]

/-- The third sum is the sum of the positive parts of σ w - σ x. -/
theorem sumNeg_at (x0 x1 : Arr S512x1024) (b p : Fin 512) :
    val_main_v29 (F := Ideal) x0 x1 (ix2 b p) = Cert.Tversky.sumNeg x0 x1 b p := by
  rw [val_main_v29_apply, val_main_cst_7_apply]
  simp only [Ideal.ofBits_def, Ideal.ofBits_zero_f32, zero_add]
  unfold Cert.Tversky.sumNeg
  refine Finset.sum_congr rfl fun k _ => ?_
  rw [val_main_v28_apply, val_main_v26_apply, val_main_v24_apply, val_main_v25_apply, val_main_v27_apply,
    val_main_cst_6_apply]
  show max (val_main_v13 (F := Ideal) x1 (idx_main_v15 (idx_main_v17 (ix2 b p) k))
      - val_main_v6 (F := Ideal) x0 (idx_main_v14 (idx_main_v17 (ix2 b p) k))) (Ideal.ofBits .f32 0x00000000#32) = _
  rw [bx_at, bw_at, Ideal.ofBits_zero_f32]

/-- The reference's result is the ratio of the three pair sums plus the bias. -/
theorem ref_eq_G (x0 x1 : Arr S512x1024) (x2 : Arr S512) (x3 x4 : Arr S_) :
    val_main_v41 (F := Ideal) x0 x1 x2 x3 x4 = Cert.Tversky.G x0 x1 x2 x3 x4 := by
  funext i
  obtain ⟨b, p, rfl⟩ : ∃ (b p : Fin 512), i = ix2 b p := ⟨i 0, i 1, eq_ix2 i⟩
  rw [val_main_v41_apply, val_main_v38_apply, val_main_v37_apply, val_main_v35_apply, val_main_v32_apply,
    val_main_v31_apply, val_main_v34_apply, val_main_v36_apply, val_main_cst_8_apply, val_main_v30_apply,
    val_main_v33_apply, val_main_v40_apply, val_main_v39_apply, sumMin_at, sumPos_at, sumNeg_at]
  simp only [Ideal.hostDivf_def, Ideal.ofBits_def, Ideal.addf_def, Ideal.mulf_def]
  have e2 : idx_main_v39 (idx_main_v40 (ix2 b p)) = ix1 p :=
    funext fun a => by match a with | ⟨0, _⟩ => rfl
  rw [e2]
  unfold Cert.Tversky.G Cert.Tversky.ratio
  rfl

end Cert.ReferenceIdeal.RefValue

end
-- ==== Proof.lean ====
/-
  The kernel computes, for each pair of a row b of x and a row p of weight, the Tversky ratio of the two rows of
  sigmoids: with a = σ(x[b, ·]) and w = σ(weight[p, ·]), both rows of reals in [0, 1],
      I = Σ_f min(a_f, w_f),   X = Σ_f max(a_f - w_f, 0),   W = Σ_f max(w_f - a_f, 0),
      out[b, p] = I / (I + α·X + β·W + ε) + bias[p].
  The reference computes I, X and W as three separate sums over f. The kernel computes only X, block by block over
  f in an accumulator, and the two row sums A = Σ_f a_f and S = Σ_f w_f on the host, and takes
      I = A - X,   W = (X + S) - A,
  which are the pointwise identities min(a, w) = a - max(a - w, 0) and max(w - a, 0) = max(a - w, 0) + w - a summed
  over f. Every sigmoid is a real number whatever its argument, so these are identities of finite real sums and hold
  on the extended reals without any assumption on the inputs; the rest of the formula is the same expression of
  I, X, W, α, β, ε and bias on both sides.

  The modules: SumLaws (the two summed identities), Spec (both forms of the result and their equality), Payloads (the
  body's stored values at an index), Pieces and Steps (what each grid point leaves), Blocks (where a block sits in its
  array), Fold (the accumulator as a sum over the column blocks), HostPrefix (the row sums and reshaped arguments the
  host prepares), KValue (the output array after the kernel's run), RefValue (the reference's result).
-/
import proofs.«116651_j5944234738210_1_alg».proof.Defs
import proofs.«116651_j5944234738210_1_alg».proof.Proof.Gen.Kernel
import proofs.«116651_j5944234738210_1_alg».proof.Proof.Gen.Kernel.Frame
import proofs.«116651_j5944234738210_1_alg».proof.Proof.Gen.KernelIdeal
import proofs.«116651_j5944234738210_1_alg».proof.Proof.Gen.KernelIdeal.Frame
import proofs.«116651_j5944234738210_1_alg».proof.Proof.Gen.KernelIdeal.Value
import proofs.«116651_j5944234738210_1_alg».proof.Proof.Gen.ReferenceIdeal
import proofs.«116651_j5944234738210_1_alg».proof.Proof.Gen.ReferenceIdeal.Run
import proofs.«116651_j5944234738210_1_alg».proof.Proof.Gen.ReferenceIdeal.Read
import proofs.«116651_j5944234738210_1_alg».proof.Proof.Gen.Pre_finite_inputs
import proofs.«116651_j5944234738210_1_alg».proof.Proof.KValue
import proofs.«116651_j5944234738210_1_alg».proof.Proof.RefValue
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- Both programs, run from memories that agree on the arguments, end with the output at the same function of the
    arguments: the kernel's array at the form with one pair sum and two row sums, the reference's at the form with
    three pair sums, and the two forms are equal. -/
theorem algebraic : Cert.algebraic_KernelIdeal_ReferenceIdeal := by
  intro m ρ m' ρ' _ hagree
  refine ⟨fun c => Cert.KernelIdeal.KValue.result m c, Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v41_eq, Cert.ReferenceIdeal.RefValue.ref_eq_G,
    (hagree c).1, (hagree c).2.1, (hagree c).2.2.1, (hagree c).2.2.2.1, (hagree c).2.2.2.2]
  exact (Cert.Tversky.Gk_eq_G _ _ _ _ _).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
